-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S4x1 .f32) (main_arg13 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4x1 .f32 := Host.absf main_arg12
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S16x8 .f32) (main_arg9 : FVec F S8 .f32) (main_arg10 : FVec F S8x4 .f32) (main_arg11 : FVec F S4 .f32) (main_arg12 : FVec F S4x1 .f32) (main_arg13 : FVec F S1 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x4 .f32 := Host.absf main_arg10
  let main_cst_16 : FVec F S_ .f32 := constant S_ .f32 0x7F800000#32
  let main_v45 : FVec F S8x4 .f32 := broadcastInDim S8x4 ![] bcast_S_S8x4 main_cst_16
  let main_v46 : IVec S8x4 1 := cmpf .olt main_v44 main_v45
  let main_c_17 : IVec S_ 1 := constantI S_ 1 1#1
  let main_v47 : IVec S_ 1 := (fun x v => Host.reduce IntOp.andi x v reducesTo_S8x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_arg12 main_arg13 main_v48 main_v49 main_v50

def fn_part1 {F : FTy → Type} [FloatOps F] (main_arg5 : FVec F S32 .f32) (main_arg6 : FVec F S32x16 .f32) (main_arg7 : FVec F S16 .f32) (main_arg8 : FVec F S16x8 .f32) (main_arg9 : FVec F S8 .f32) (main_arg10 : FVec F S8x4 .f32) (main_arg11 : FVec F S4 .f32) (main_arg12 : FVec F S4x1 .f32) (main_arg13 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x1600000 32) (main_arg2 : FVec F S128x64 .f32) (main_arg3 : FVec F S64 .f32) (main_arg4 : FVec F S64x32 .f32) (main_arg5 : FVec F S32 .f32) (main_arg6 : FVec F S32x16 .f32) (main_arg7 : FVec F S16 .f32) (main_arg8 : FVec F S16x8 .f32) (main_arg9 : FVec F S8 .f32) (main_arg10 : FVec F S8x4 .f32) (main_arg11 : FVec F S4 .f32) (main_arg12 : FVec F S4x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S250x1x6400 : Shape := ⟨3, ![250, 1, 6400]⟩
abbrev S6400x64 : Shape := ⟨2, ![6400, 64]⟩
abbrev S1x1x6400 : Shape := ⟨3, ![1, 1, 6400]⟩
abbrev S64x64 : Shape := ⟨2, ![64, 64]⟩
abbrev S1x64 : Shape := ⟨2, ![1, 64]⟩
abbrev S6400x32 : Shape := ⟨2, ![6400, 32]⟩
abbrev S1x32 : Shape := ⟨2, ![1, 32]⟩
abbrev S6400x16 : Shape := ⟨2, ![6400, 16]⟩
abbrev S1x16 : Shape := ⟨2, ![1, 16]⟩
abbrev S6400x8 : Shape := ⟨2, ![6400, 8]⟩
abbrev S1x8 : Shape := ⟨2, ![1, 8]⟩
abbrev S6400x4 : Shape := ⟨2, ![6400, 4]⟩
abbrev S1x4 : Shape := ⟨2, ![1, 4]⟩
abbrev S6400x1 : Shape := ⟨2, ![6400, 1]⟩
abbrev S1x1 : Shape := ⟨2, ![1, 1]⟩
abbrev S1x6400 : Shape := ⟨2, ![1, 6400]⟩
abbrev S6400 : Shape := ⟨1, ![6400]⟩

abbrev nBuf : Space → Nat
  | .hbm => 40
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S8x4, .f32⟩
  | .hbm, ⟨11, _⟩ => ⟨S4, .f32⟩
  | .hbm, ⟨12, _⟩ => ⟨S4x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S250x1x6400, .f32⟩
  | .hbm, ⟨37, _⟩ => ⟨S250x1x6400, .f32⟩
  | .hbm, ⟨38, _⟩ => ⟨S1600000x1, .f32⟩
  | .hbm, ⟨39, _⟩ => ⟨S1600000, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S128x64, .f32⟩
  | .local _ .vmem, ⟨5, _⟩ => ⟨S64, .f32⟩
  | .local _ .vmem, ⟨6, _⟩ => ⟨S64x32, .f32⟩
  | .local _ .vmem, ⟨7, _⟩ => ⟨S32, .f32⟩
  | .local _ .vmem, ⟨8, _⟩ => ⟨S32x16, .f32⟩
  | .local _ .vmem, ⟨9, _⟩ => ⟨S16, .f32⟩
  | .local _ .vmem, ⟨10, _⟩ => ⟨S16x8, .f32⟩
  | .local _ .vmem, ⟨11, _⟩ => ⟨S8, .f32⟩
  | .local _ .vmem, ⟨12, _⟩ => ⟨S8x4, .f32⟩
  | .local _ .vmem, ⟨13, _⟩ => ⟨S4, .f32⟩
  | .local _ .vmem, ⟨14, _⟩ => ⟨S4x1, .f32⟩
  | .local _ .vmem, ⟨15, _⟩ => ⟨S1, .f32⟩
  | .local _ .vmem, ⟨16, _⟩ => ⟨S1x1x6400, .f32⟩
  | .local _ .vmem, ⟨17, _⟩ => ⟨S1x1x6400, .f32⟩
  | .local _ .vmem, ⟨18, _⟩ => ⟨S1x1x6400, .f32⟩
  | .local _ .vmem, ⟨19, _⟩ => ⟨S1x1x6400, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x6400 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x6400 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S128x64_S64x64_0_0 : ∀ a, (![0, 0] : Fin 2 → Nat) a + S64x64.size a ≤ S128x64.size a
  h_S64x64 : 0 < S64x64.numel
  inb_S128x64_S64x64_64_0 : ∀ a, (![64, 0] : Fin 2 → Nat) a + S64x64.size a ≤ S128x64.size a
  inb_S64_S64_0 : ∀ a, (![0] : Fin 1 → Nat) a + S64.size a ≤ S64.size a
  h_S64 : 0 < S64.numel
  shapeCasts_S64_S1x64 : S64.ShapeCasts S1x64
  broadcasts_S1x64_S6400x64 : S1x64.Broadcasts S6400x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S6400x32 : S1x32.Broadcasts S6400x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S6400x16 : S1x16.Broadcasts S6400x16
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  shapeCasts_S8_S1x8 : S8.ShapeCasts S1x8
  broadcasts_S1x8_S6400x8 : S1x8.Broadcasts S6400x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S6400x4 : S1x4.Broadcasts S6400x4
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  transposes_S6400x1_p1_0_S1x6400 : S6400x1.Transposes [1, 0] S1x6400
  shapeCasts_S1x6400_S1x1x6400 : S1x6400.ShapeCasts S1x1x6400
  inb_S1x1x6400_S1x1x6400_0_0_0 : ∀ a, (![0, 0, 0] : Fin 3 → Nat) a + S1x1x6400.size a ≤ S1x1x6400.size a
  h_S1x1x6400 : 0 < S1x1x6400.numel
  reduces_S6400x64_S6400 : S6400x64.Reduces [1] S6400
  shapeCasts_S6400_S6400x1 : S6400.ShapeCasts S6400x1
  shapeCasts_S250x1x6400_S1600000x1 : S250x1x6400.ShapeCasts S1600000x1
  shapeCasts_S250x1x6400_S1600000 : S250x1x6400.ShapeCasts S1600000
  gather_S50000x64_S1600000x1_S1600000x64_1_0_n_n_0_1_164_wf : GatherDims.WF S50000x64 S1600000x1 S1600000x64 [1] [0] [] [0] [] 1 ![1, 64]
  dot_S6400x64_S64x64_S6400x64_1_0_0_1_n_n_wf : DotDims.WF S6400x64 S64x64 S6400x64 [1] [0] [0] [1] [] []
  dot_S6400x64_S64x32_S6400x32_1_0_0_1_n_n_wf : DotDims.WF S6400x64 S64x32 S6400x32 [1] [0] [0] [1] [] []
  dot_S6400x32_S32x16_S6400x16_1_0_0_1_n_n_wf : DotDims.WF S6400x32 S32x16 S6400x16 [1] [0] [0] [1] [] []
  dot_S6400x16_S16x8_S6400x8_1_0_0_1_n_n_wf : DotDims.WF S6400x16 S16x8 S6400x8 [1] [0] [0] [1] [] []
  dot_S6400x8_S8x4_S6400x4_1_0_0_1_n_n_wf : DotDims.WF S6400x8 S8x4 S6400x4 [1] [0] [0] [1] [] []
  dot_S6400x4_S4x1_S6400x1_1_0_0_1_n_n_wf : DotDims.WF S6400x4 S4x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x8.size a ≤ S16x8.size a
  hwx0_8 : ∀ i : grid0.Coords, EltTy.bits .f32 = 32 ∨ (Rect.block (s := S16x8) S16x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8.size a ≤ S8.size a
  hwx0_9 : ∀ i : grid0.Coords, EltTy.bits .f32 = 32 ∨ (Rect.block (s := S8) S8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x4.size a ≤ S8x4.size a
  hwx0_10 : ∀ i : grid0.Coords, EltTy.bits .f32 = 32 ∨ (Rect.block (s := S8x4) S8x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4.size a ≤ S4.size a
  hwx0_11 : ∀ i : grid0.Coords, EltTy.bits .f32 = 32 ∨ (Rect.block (s := S4) S4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1.size a ≤ S4x1.size a
  hwx0_12 : ∀ i : grid0.Coords, EltTy.bits .f32 = 32 ∨ (Rect.block (s := S4x1) S4x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x6400.size a ≤ S250x1x6400.size a
  hwx0_14 : ∀ i : grid0.Coords, EltTy.bits .f32 = 32 ∨ (Rect.block (s := S250x1x6400) S1x1x6400.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x6400.size a ≤ S250x1x6400.size a
  hwx0_15 : ∀ i : grid0.Coords, EltTy.bits .f32 = 32 ∨ (Rect.block (s := S250x1x6400) S1x1x6400.size (cc0_transform_15 i) (hinb0_15 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x64_S64x32_S6400x32_1_0_0_1_n_n : DotDims S6400x64 S64x32 S6400x32 where
  lhsContracting := [1]
  rhsContracting := [0]
  lhsNonContracting := [0]
  rhsNonContracting := [1]
  lhsBatch := []
  rhsBatch := []
  wf := dot_S6400x64_S64x32_S6400x32_1_0_0_1_n_n_wf
def dot_S6400x32_S32x16_S6400x16_1_0_0_1_n_n : DotDims S6400x32 S32x16 S6400x16 where
  lhsContracting := [1]
  rhsContracting := [0]
  lhsNonContracting := [0]
  rhsNonContracting := [1]
  lhsBatch := []
  rhsBatch := []
  wf := dot_S6400x32_S32x16_S6400x16_1_0_0_1_n_n_wf
def dot_S6400x16_S16x8_S6400x8_1_0_0_1_n_n : DotDims S6400x16 S16x8 S6400x8 where
  lhsContracting := [1]
  rhsContracting := [0]
  lhsNonContracting := [0]
  rhsNonContracting := [1]
  lhsBatch := []
  rhsBatch := []
  wf := dot_S6400x16_S16x8_S6400x8_1_0_0_1_n_n_wf
def dot_S6400x8_S8x4_S6400x4_1_0_0_1_n_n : DotDims S6400x8 S8x4 S6400x4 where
  lhsContracting := [1]
  rhsContracting := [0]
  lhsNonContracting := [0]
  rhsNonContracting := [1]
  lhsBatch := []
  rhsBatch := []
  wf := dot_S6400x8_S8x4_S6400x4_1_0_0_1_n_n_wf
def dot_S6400x4_S4x1_S6400x1_1_0_0_1_n_n : DotDims S6400x4 S4x1 S6400x1 where
  lhsContracting := [1]
  rhsContracting := [0]
  lhsNonContracting := [0]
  rhsNonContracting := [1]
  lhsBatch := []
  rhsBatch := []
  wf := dot_S6400x4_S4x1_S6400x1_1_0_0_1_n_n_wf

abbrev win0_0 : Pipeline.Window sig grid0 :=
  Pipeline.Window.ofSpec (Memref.whole main_v8) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18_0) S1x1x6400.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_1) S1x1x6400.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S1600000x32 : Shape := ⟨2, ![1600000, 32]⟩
abbrev S1x32 : Shape := ⟨2, ![1, 32]⟩
abbrev S1600000x16 : Shape := ⟨2, ![1600000, 16]⟩
abbrev S1x16 : Shape := ⟨2, ![1, 16]⟩
abbrev S1600000x8 : Shape := ⟨2, ![1600000, 8]⟩
abbrev S1x8 : Shape := ⟨2, ![1, 8]⟩
abbrev S1600000x4 : Shape := ⟨2, ![1600000, 4]⟩
abbrev S1x4 : Shape := ⟨2, ![1, 4]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S8x4, .f32⟩
  | .hbm, ⟨11, _⟩ => ⟨S4, .f32⟩
  | .hbm, ⟨12, _⟩ => ⟨S4x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S1600000x32, .f32⟩
  | .hbm, ⟨45, _⟩ => ⟨S1x32, .f32⟩
  | .hbm, ⟨46, _⟩ => ⟨S1600000x32, .f32⟩
  | .hbm, ⟨47, _⟩ => ⟨S1600000x32, .f32⟩
  | .hbm, ⟨48, _⟩ => ⟨S_, .f32⟩
  | .hbm, ⟨49, _⟩ => ⟨S1600000x32, .f32⟩
  | .hbm, ⟨50, _⟩ => ⟨S1600000x32, .f32⟩
  | .hbm, ⟨51, _⟩ => ⟨S1600000x16, .f32⟩
  | .hbm, ⟨52, _⟩ => ⟨S1x16, .f32⟩
  | .hbm, ⟨53, _⟩ => ⟨S1600000x16, .f32⟩
  | .hbm, ⟨54, _⟩ => ⟨S1600000x16, .f32⟩
  | .hbm, ⟨55, _⟩ => ⟨S_, .f32⟩
  | .hbm, ⟨56, _⟩ => ⟨S1600000x16, .f32⟩
  | .hbm, ⟨57, _⟩ => ⟨S1600000x16, .f32⟩
  | .hbm, ⟨58, _⟩ => ⟨S1600000x8, .f32⟩
  | .hbm, ⟨59, _⟩ => ⟨S1x8, .f32⟩
  | .hbm, ⟨60, _⟩ => ⟨S1600000x8, .f32⟩
  | .hbm, ⟨61, _⟩ => ⟨S1600000x8, .f32⟩
  | .hbm, ⟨62, _⟩ => ⟨S_, .f32⟩
  | .hbm, ⟨63, _⟩ => ⟨S1600000x8, .f32⟩
  | .hbm, ⟨64, _⟩ => ⟨S1600000x8, .f32⟩
  | .hbm, ⟨65, _⟩ => ⟨S1600000x4, .f32⟩
  | .hbm, ⟨66, _⟩ => ⟨S1x4, .f32⟩
  | .hbm, ⟨67, _⟩ => ⟨S1600000x4, .f32⟩
  | .hbm, ⟨68, _⟩ => ⟨S1600000x4, .f32⟩
  | .hbm, ⟨69, _⟩ => ⟨S_, .f32⟩
  | .hbm, ⟨70, _⟩ => ⟨S1600000x4, .f32⟩
  | .hbm, ⟨71, _⟩ => ⟨S1600000x4, .f32⟩
  | .hbm, ⟨72, _⟩ => ⟨S1600000x1, .f32⟩
  | .hbm, ⟨73, _⟩ => ⟨S1x1, .f32⟩
  | .hbm, ⟨74, _⟩ => ⟨S1600000x1, .f32⟩
  | .hbm, ⟨75, _⟩ => ⟨S1600000x1, .f32⟩
  | .hbm, ⟨76, _⟩ => ⟨S1600000x64, .f32⟩
  | .hbm, ⟨77, _⟩ => ⟨S_, .f32⟩
  | .hbm, ⟨78, _⟩ => ⟨S1600000, .f32⟩
  | .hbm, ⟨79, _⟩ => ⟨S1600000x64, .f32⟩
  | .hbm, ⟨80, _⟩ => ⟨S_, .f32⟩
  | .hbm, ⟨81, _⟩ => ⟨S1600000, .f32⟩
  | .hbm, ⟨82, _⟩ => ⟨S1600000, .f32⟩
  | .hbm, ⟨83, _⟩ => ⟨S_, .f32⟩
  | .hbm, ⟨84, _⟩ => ⟨S1600000, .f32⟩
  | .hbm, ⟨85, _⟩ => ⟨S1600000, .f32⟩
  | .hbm, ⟨86, _⟩ => ⟨S1600000x64, .f32⟩
  | .hbm, ⟨87, _⟩ => ⟨S_, .f32⟩
  | .hbm, ⟨88, _⟩ => ⟨S1600000, .f32⟩
  | .hbm, ⟨89, _⟩ => ⟨S1600000, .f32⟩
  | .hbm, ⟨90, _⟩ => ⟨S_, .f32⟩
  | .hbm, ⟨91, _⟩ => ⟨S1600000, .f32⟩
  | .hbm, ⟨92, _⟩ => ⟨S1600000, .f32⟩
  | .hbm, ⟨93, _⟩ => ⟨S1600000, .f32⟩
  | .hbm, ⟨94, _⟩ => ⟨S1600000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_cst : Ref sig .tc := ⟨.hbm, 62, rfl⟩
abbrev main_call3_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call4_cst : Ref sig .tc := ⟨.hbm, 69, rfl⟩
abbrev main_call4_v0 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst : Ref sig .tc := ⟨.hbm, 77, rfl⟩
abbrev main_v49 : Ref sig .tc := ⟨.hbm, 78, rfl⟩
abbrev main_v50 : Ref sig .tc := ⟨.hbm, 79, rfl⟩
abbrev main_cst_3 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_5 : Ref sig .tc := ⟨.hbm, 87, rfl⟩
abbrev main_v56 : Ref sig .tc := ⟨.hbm, 88, rfl⟩
abbrev main_v57 : Ref sig .tc := ⟨.hbm, 89, rfl⟩
abbrev main_cst_6 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  bcast_S_S1600000x8 : S_.BroadcastsInDim S1600000x8 (![] : Fin 0 → Fin S1600000x8.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  bcast_S_S1600000x4 : S_.BroadcastsInDim S1600000x4 (![] : Fin 0 → Fin S1600000x4.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x64_S1600000_d1 : S1600000x64.ReducesTo [1] S1600000
  h_S_ : 0 < S_.numel
  gather_S50000x64_S1600000x1_S1600000x64_1_0_n_n_0_1_164_wf : GatherDims.WF S50000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x32_S1600000x32_1_0_0_1_n_n_wf : DotDims.WF S1600000x64 S64x32 S1600000x32 [1] [0] [0] [1] [] []
  dot_S1600000x32_S32x16_S1600000x16_1_0_0_1_n_n_wf : DotDims.WF S1600000x32 S32x16 S1600000x16 [1] [0] [0] [1] [] []
  dot_S1600000x16_S16x8_S1600000x8_1_0_0_1_n_n_wf : DotDims.WF S1600000x16 S16x8 S1600000x8 [1] [0] [0] [1] [] []
  dot_S1600000x8_S8x4_S1600000x4_1_0_0_1_n_n_wf : DotDims.WF S1600000x8 S8x4 S1600000x4 [1] [0] [0] [1] [] []
  dot_S1600000x4_S4x1_S1600000x1_1_0_0_1_n_n_wf : DotDims.WF S1600000x4 S4x1 S1600000x1 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x16_S1600000x16_1_0_0_1_n_n : DotDims S1600000x32 S32x16 S1600000x16 where
  lhsContracting := [1]
  rhsContracting := [0]
  lhsNonContracting := [0]
  rhsNonContracting := [1]
  lhsBatch := []
  rhsBatch := []
  wf := dot_S1600000x32_S32x16_S1600000x16_1_0_0_1_n_n_wf
def dot_S1600000x16_S16x8_S1600000x8_1_0_0_1_n_n : DotDims S1600000x16 S16x8 S1600000x8 where
  lhsContracting := [1]
  rhsContracting := [0]
  lhsNonContracting := [0]
  rhsNonContracting := [1]
  lhsBatch := []
  rhsBatch := []
  wf := dot_S1600000x16_S16x8_S1600000x8_1_0_0_1_n_n_wf
def dot_S1600000x8_S8x4_S1600000x4_1_0_0_1_n_n : DotDims S1600000x8 S8x4 S1600000x4 where
  lhsContracting := [1]
  rhsContracting := [0]
  lhsNonContracting := [0]
  rhsNonContracting := [1]
  lhsBatch := []
  rhsBatch := []
  wf := dot_S1600000x8_S8x4_S1600000x4_1_0_0_1_n_n_wf
def dot_S1600000x4_S4x1_S1600000x1_1_0_0_1_n_n : DotDims S1600000x4 S4x1 S1600000x1 where
  lhsContracting := [1]
  rhsContracting := [0]
  lhsNonContracting := [0]
  rhsNonContracting := [1]
  lhsBatch := []
  rhsBatch := []
  wf := dot_S1600000x4_S4x1_S1600000x1_1_0_0_1_n_n_wf

class Facts : Prop extends Facts₀ where

variable [Facts]
-- ==== Proof.Spec.lean ====
/-
  The mathematics both programs compute, one edge at a time.

  An edge carries two rows of 64 numbers, the features of its two endpoints. Its attribute is a six-layer perceptron of
  the 128 numbers `(x_i, x_j)`: each layer is `h ↦ h·W + b`, followed (but for the last) by `max(·, 0)`. The first layer
  can be taken on the concatenated row, `∑_{k<128} (x_i ‖ x_j)_k W_{k,n}`, or as the two half-products added,
  `∑_{k<64} x_{i,k} W_{k,n} + ∑_{k<64} x_{j,k} W_{64+k,n}`: the sum over 128 indices splits into the sums over the first and
  the last 64, and addition of extended reals is commutative and associative, so the two are equal whatever the
  entries are (`dense_cat`; no finiteness is needed). The edge's cosine similarity is
  `(x_i · x_j) / (max(‖x_i‖, ε) · max(‖x_j‖, ε))`.
-/
import Idealize.ShloMosaic.PureOps.Ideal
import Idealize.ShloMosaic.Lib.ValueIdx

noncomputable section

open scoped BigOperators

namespace Cert.EdgeMlp

open Idealize.ShloMosaic Idealize.ShloMosaic.ValueIdx

/-- The word of `0.0`, read as an extended real. -/
abbrev zeroW : EReal := Ideal.ofBits .f32 0x00000000#32
/-- The word of the clamp `ε` (the f32 nearest `1e-8`), read as an extended real. -/
abbrev epsW : EReal := Ideal.ofBits .f32 0x322BCC77#32

/-- Row `r` of a matrix. -/
def rowOf {R K : Nat} (X : (⟨2, ![R, K]⟩ : Shape).Idx → EReal) (r : Fin R) : Fin K → EReal := fun k => X (ix2 r k)

/-- One affine layer on a row: `n ↦ ∑ₖ hₖ · W_{k,n} + bₙ`. -/
def dense {K N : Nat} (h : Fin K → EReal) (W : (⟨2, ![K, N]⟩ : Shape).Idx → EReal) (b : (⟨1, ![N]⟩ : Shape).Idx → EReal) :
    Fin N → EReal :=
  fun n => (∑ k : Fin K, h k * W (ix2 k n)) + b (ix1 n)

/-- The rectifier on a row. -/
def relu {N : Nat} (x : Fin N → EReal) : Fin N → EReal := fun n => max (x n) zeroW

/-- Row `k` of the upper half of a 128-row matrix. -/
def lo (k : Fin 64) : Fin 128 := ⟨k.val, by have := k.isLt; omega⟩
/-- Row `64 + k`, of the lower half. -/
def hi (k : Fin 64) : Fin 128 := ⟨64 + k.val, by have := k.isLt; omega⟩

/-- The first layer as two half-products added: `x_i` against the upper 64 rows of `W`, `x_j` against the lower 64. -/
def dense2 (xi xj : Fin 64 → EReal) (W : (⟨2, ![128, 64]⟩ : Shape).Idx → EReal) (b : (⟨1, ![64]⟩ : Shape).Idx → EReal) :
    Fin 64 → EReal :=
  fun n => ((∑ k : Fin 64, xi k * W (ix2 (lo k) n)) + (∑ k : Fin 64, xj k * W (ix2 (hi k) n))) + b (ix1 n)

/-- Two rows of 64 laid end to end. -/
def cat (xi xj : Fin 64 → EReal) : Fin 128 → EReal :=
  fun k => if h : k.val < 64 then xi ⟨k.val, h⟩ else xj ⟨k.val - 64, by have := k.isLt; omega⟩

theorem cat_lo (xi xj : Fin 64 → EReal) (k : Fin 64) : cat xi xj (lo k) = xi k := by
  have h : (lo k).val < 64 := k.isLt
  unfold cat
  rw [dif_pos h]
  rfl

theorem cat_hi (xi xj : Fin 64 → EReal) (k : Fin 64) : cat xi xj (hi k) = xj k := by
  have h : ¬ (hi k).val < 64 := by show ¬ (64 + k.val < 64); omega
  unfold cat
  rw [dif_neg h]
  exact congrArg xj (Fin.ext (by show 64 + k.val - 64 = k.val; omega))

/-- A sum over 128 indices is the sum over the first 64 plus the sum over the last 64. -/
theorem sum_split (f : Fin 128 → EReal) : ∑ k : Fin 128, f k = (∑ k : Fin 64, f (lo k)) + ∑ k : Fin 64, f (hi k) := by
  have e := Fin.sum_univ_add (M := EReal) (a := 64) (b := 64) (fun k : Fin (64 + 64) => f k)
  refine e.trans ?_
  refine congrArg₂ (· + ·) (Finset.sum_congr rfl fun k _ => congrArg f (Fin.ext rfl))
    (Finset.sum_congr rfl fun k _ => congrArg f (Fin.ext rfl))

/-- The first layer on the concatenated row is the two half-products added. -/
theorem dense_cat (xi xj : Fin 64 → EReal) (W : (⟨2, ![128, 64]⟩ : Shape).Idx → EReal) (b : (⟨1, ![64]⟩ : Shape).Idx → EReal) :
    dense (cat xi xj) W b = dense2 xi xj W b := by
  funext n
  unfold dense dense2
  refine congrArg (· + b (ix1 n)) ?_
  rw [sum_split (fun k => cat xi xj k * W (ix2 k n))]
  simp only [cat_lo, cat_hi]

/-- The edge attribute: the six layers on the two endpoint rows. -/
def mlpRow (xi xj : Fin 64 → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 16]⟩ : Shape).Idx → EReal) (b3 : (⟨1, ![16]⟩ : Shape).Idx → EReal)
    (W4 : (⟨2, ![16, 8]⟩ : Shape).Idx → EReal) (b4 : (⟨1, ![8]⟩ : Shape).Idx → EReal)
    (W5 : (⟨2, ![8, 4]⟩ : Shape).Idx → EReal) (b5 : (⟨1, ![4]⟩ : Shape).Idx → EReal)
    (W6 : (⟨2, ![4, 1]⟩ : Shape).Idx → EReal) (b6 : (⟨1, ![1]⟩ : Shape).Idx → EReal) : EReal :=
  dense (relu (dense (relu (dense (relu (dense (relu (dense (relu (dense2 xi xj W1 b1)) W2 b2)) W3 b3)) W4 b4)) W5 b5)) W6 b6
    (0 : Fin 1)

/-- The cosine similarity of the two endpoint rows, each norm clamped below at `ε`. -/
def cosRow (xi xj : Fin 64 → EReal) : EReal :=
  Ideal.div (∑ k : Fin 64, xi k * xj k)
    (max (Ideal.sqrt (∑ k : Fin 64, xi k * xi k)) epsW * max (Ideal.sqrt (∑ k : Fin 64, xj k * xj k)) epsW)

/-- The result arrays: entry `e` of each is the edge's attribute, or its cosine similarity, from rows `e` of the two
    endpoint-feature arrays. -/
def attrOut {E : Nat} (XI XJ : (⟨2, ![E, 64]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 16]⟩ : Shape).Idx → EReal) (b3 : (⟨1, ![16]⟩ : Shape).Idx → EReal)
    (W4 : (⟨2, ![16, 8]⟩ : Shape).Idx → EReal) (b4 : (⟨1, ![8]⟩ : Shape).Idx → EReal)
    (W5 : (⟨2, ![8, 4]⟩ : Shape).Idx → EReal) (b5 : (⟨1, ![4]⟩ : Shape).Idx → EReal)
    (W6 : (⟨2, ![4, 1]⟩ : Shape).Idx → EReal) (b6 : (⟨1, ![1]⟩ : Shape).Idx → EReal) :
    (⟨2, ![E, 1]⟩ : Shape).Idx → EReal :=
  fun i => mlpRow (rowOf XI (i 0 : Fin E)) (rowOf XJ (i 0 : Fin E)) W1 b1 W2 b2 W3 b3 W4 b4 W5 b5 W6 b6

def cosOut {E : Nat} (XI XJ : (⟨2, ![E, 64]⟩ : Shape).Idx → EReal) : (⟨1, ![E]⟩ : Shape).Idx → EReal :=
  fun i => cosRow (rowOf XI (i 0 : Fin E)) (rowOf XJ (i 0 : Fin E))

end Cert.EdgeMlp

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«152728_j15693810500067_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelBody.lean ====
/-
  What the kernel's body computes at one grid point, read at the ideal values one edge (one row of its 6400-row blocks)
  at a time.

  The body holds two blocks of endpoint rows and the twelve weight arrays. Its first store is the perceptron of each row
  pair: every layer is a matrix product into a zero accumulator plus the bias laid along the rows, then `max(·, 0)`; the
  roundings to bf16 on the way into a product are the identity on extended reals; the first layer multiplies the two
  blocks with the upper and the lower 64 rows of the first weight matrix and adds. The last layer's column is turned on
  its side before it is stored, so lane `j` of the stored block is row `j`'s attribute. Its second store is each row
  pair's cosine similarity, laid out the same way.
-/
import proofs.«152728_j15693810500067_2_alg».proof.Proof.Gen.KernelIdeal.Frame
import proofs.«152728_j15693810500067_2_alg».proof.Proof.Spec
import proofs.«152728_j15693810500067_2_alg».proof.Proof.LibRowOps
import proofs.«152728_j15693810500067_2_alg».proof.Proof.LibKeepdims

noncomputable section

open scoped BigOperators

namespace Cert.KernelIdeal.Body

open Cert.KernelIdeal Cert.KernelIdeal.Gen Cert.EdgeMlp Cert.LibRowOps
open Idealize.ShloMosaic Idealize.ShloMosaic.ValueIdx

/-- A kernel's affine layer, row by row: the roundings on the way into the product change nothing. -/
theorem affine_row {m k n : Nat} (dd : DotDims ⟨2, ![m, k]⟩ ⟨2, ![k, n]⟩ ⟨2, ![m, n]⟩) (hdd : dd = DotDims.plain m k n)
    (A : FVec Ideal ⟨2, ![m, k]⟩ .f32) (B : FVec Ideal ⟨2, ![k, n]⟩ .f32) (b : FVec Ideal ⟨1, ![n]⟩ .f32)
    (hA : FTy.bits .bf16 < FTy.bits .f32) (hB : FTy.bits .bf16 < FTy.bits .f32)
    (h1 : (⟨1, ![n]⟩ : Shape).ShapeCasts ⟨2, ![1, n]⟩) (hb : (⟨2, ![1, n]⟩ : Shape).Broadcasts ⟨2, ![m, n]⟩) (r : Fin m) :
    rowOf (addf (matmul dd none (truncf .bf16 A hA) (truncf .bf16 B hB) (constant (F := Ideal) ⟨2, ![m, n]⟩ .f32 0x00000000#32))
        (broadcastTo ⟨2, ![m, n]⟩ (shapeCast ⟨2, ![1, n]⟩ b h1) hb)) r
      = dense (rowOf A r) B b :=
  funext fun c => kernel_affine_apply dd hdd none (truncf .bf16 A hA) (truncf .bf16 B hB) b h1 hb r c

/-- The rectifier, row by row. -/
theorem relu_row {m n : Nat} (X : FVec Ideal ⟨2, ![m, n]⟩ .f32) (r : Fin m) :
    rowOf (maximumf X (broadcast ⟨2, ![m, n]⟩ (Scalar.ofBits (F := Ideal) .f32 0x00000000#32))) r = relu (rowOf X r) := rfl

/-- The upper half of the first weight matrix, as the body loads it. -/
theorem ld_upper (x2 : Vec Ideal S128x64 .f32) (q n : Fin 64) : View.ld x2 r0_1 (ix2 q n) = x2 (ix2 (lo q) n) := by
  refine congrArg x2 (funext fun a => Fin.ext ?_)
  match a with
  | ⟨0, _⟩ => show 0 + 1 * q.val = q.val; omega
  | ⟨1, _⟩ => show 0 + 1 * n.val = n.val; omega

/-- The lower half. -/
theorem ld_lower (x2 : Vec Ideal S128x64 .f32) (q n : Fin 64) : View.ld x2 r0_2 (ix2 q n) = x2 (ix2 (hi q) n) := by
  refine congrArg x2 (funext fun a => Fin.ext ?_)
  match a with
  | ⟨0, _⟩ => show 64 + 1 * q.val = 64 + q.val; omega
  | ⟨1, _⟩ => show 0 + 1 * n.val = n.val; omega

/-- The first layer, row by row: the two half-products added, plus the bias. -/
theorem first_row (v0 v2 : FVec Ideal S6400x64 .f32) (x2 : Vec Ideal S128x64 .f32) (v13 : Vec Ideal S64 .f32)
    (h0 h2 h6 h8 : FTy.bits .bf16 < FTy.bits .f32)
    (h1 : S64.ShapeCasts S1x64) (hb : S1x64.Broadcasts S6400x64) (r : Fin 6400) :
    rowOf (addf (addf
          (matmul dot_S6400x64_S64x64_S6400x64_1_0_0_1_n_n none (truncf .bf16 v0 h0) (truncf .bf16 (View.ld x2 r0_1) h6)
            (constant (F := Ideal) S6400x64 .f32 0x00000000#32))
          (matmul dot_S6400x64_S64x64_S6400x64_1_0_0_1_n_n none (truncf .bf16 v2 h2) (truncf .bf16 (View.ld x2 r0_2) h8)
            (constant (F := Ideal) S6400x64 .f32 0x00000000#32)))
        (broadcastTo S6400x64 (shapeCast S1x64 v13 h1) hb)) r
      = dense2 (rowOf v0 r) (rowOf v2 r) x2 v13 := by
  funext n
  have e : dot_S6400x64_S64x64_S6400x64_1_0_0_1_n_n = DotDims.plain 6400 64 64 := rfl
  show (matmul dot_S6400x64_S64x64_S6400x64_1_0_0_1_n_n none (truncf .bf16 v0 h0) (truncf .bf16 (View.ld x2 r0_1) h6)
            (constant (F := Ideal) S6400x64 .f32 0x00000000#32) (ix2 r n)
        + matmul dot_S6400x64_S64x64_S6400x64_1_0_0_1_n_n none (truncf .bf16 v2 h2) (truncf .bf16 (View.ld x2 r0_2) h8)
            (constant (F := Ideal) S6400x64 .f32 0x00000000#32) (ix2 r n))
      + broadcastTo S6400x64 (shapeCast S1x64 v13 h1) hb (ix2 r n) = _
  rw [e, LibMatmulPlain.matmul_plain_zero_apply, LibMatmulPlain.matmul_plain_zero_apply, broadcastTo_1b_ab_apply,
    shapeCast_a_1a_apply]
  unfold dense2
  refine congrArg (· + v13 (ix1 n)) (congrArg₂ (· + ·) (Finset.sum_congr rfl fun q _ => ?_) (Finset.sum_congr rfl fun q _ => ?_))
  · exact congrArg (v0 (ix2 r q) * ·) (ld_upper x2 q n)
  · exact congrArg (v2 (ix2 r q) * ·) (ld_lower x2 q n)

/-- Layers one to three, before the third rectifier, row by row. -/
theorem pay4_row (v0 v2 : Vec Ideal S6400x64 .f32) (x2 : Vec Ideal S128x64 .f32) (v13 : Vec Ideal S64 .f32)
    (v20 : Vec Ideal S64x32 .f32) (v23 : Vec Ideal S32 .f32) (v30 : Vec Ideal S32x16 .f32) (v33 : Vec Ideal S16 .f32)
    (r : Fin 6400) :
    rowOf (k0_pay4 (F := Ideal) v0 v2 (View.ld x2 r0_1) (View.ld x2 r0_2) v13 v20 v23 v30 v33) r
      = dense (relu (dense (relu (dense2 (rowOf v0 r) (rowOf v2 r) x2 v13)) v20 v23)) v30 v33 := by
  unfold k0_pay4 k0_pay2 k0_pay3
  refine (affine_row dot_S6400x32_S32x16_S6400x16_1_0_0_1_n_n rfl _ v30 v33 _ _ _ _ r).trans ?_
  refine congrArg (fun h => dense h v30 v33) ?_
  refine (relu_row _ r).trans (congrArg relu ?_)
  refine (affine_row dot_S6400x64_S64x32_S6400x32_1_0_0_1_n_n rfl _ v20 v23 _ _ _ _ r).trans ?_
  refine congrArg (fun h => dense h v20 v23) ?_
  refine (relu_row _ r).trans (congrArg relu ?_)
  rw [shapeCast_self, shapeCast_self]
  exact first_row v0 v2 x2 v13 _ _ _ _ _ _ r

/-- Layers four to six on a row that has left the third affine layer, and the turn of the result column: lane `j` of the stored
    block is row `j`'s attribute. -/
theorem pay5_apply (v36 : FVec Ideal S6400x16 .f32) (v40 : Vec Ideal S16x8 .f32) (v43 : Vec Ideal S8 .f32)
    (v50 : Vec Ideal S8x4 .f32) (v53 : Vec Ideal S4 .f32) (v60 : Vec Ideal S4x1 .f32) (v63 : Vec Ideal S1 .f32) (j : Fin 6400) :
    k0_pay5 (F := Ideal) v36 (Scalar.ofBits .f32 0x00000000#32) v40 v43 v50 v53 v60 v63 (ix3 (0 : Fin 1) (0 : Fin 1) j)
      = dense (relu (dense (relu (dense (relu (rowOf v36 j)) v40 v43)) v50 v53)) v60 v63 (0 : Fin 1) := by
  unfold k0_pay5
  refine (column_as_lanes_apply _ _ _ j).trans ?_
  refine (congrFun (affine_row dot_S6400x4_S4x1_S6400x1_1_0_0_1_n_n rfl _ v60 v63 _ _ _ _ j) (0 : Fin 1)).trans ?_
  refine congrFun (congrArg (fun h => dense h v60 v63) ?_) (0 : Fin 1)
  refine (relu_row _ j).trans (congrArg relu ?_)
  refine (affine_row dot_S6400x8_S8x4_S6400x4_1_0_0_1_n_n rfl _ v50 v53 _ _ _ _ j).trans ?_
  refine congrArg (fun h => dense h v50 v53) ?_
  refine (relu_row _ j).trans (congrArg relu ?_)
  refine (affine_row dot_S6400x16_S16x8_S6400x8_1_0_0_1_n_n rfl _ v40 v43 _ _ _ _ j).trans ?_
  refine congrArg (fun h => dense h v40 v43) ?_
  exact relu_row _ j

/-- The first store, lane `j`: row `j`'s attribute, the perceptron of the two blocks' rows `j`. -/
theorem attr_apply (x0 x1 : Vec Ideal S6400x64 .f32) (x2 : Vec Ideal S128x64 .f32) (x3 : Vec Ideal S64 .f32)
    (x4 : Vec Ideal S64x32 .f32) (x5 : Vec Ideal S32 .f32) (x6 : Vec Ideal S32x16 .f32) (x7 : Vec Ideal S16 .f32)
    (x8 : Vec Ideal S16x8 .f32) (x9 : Vec Ideal S8 .f32) (x10 : Vec Ideal S8x4 .f32) (x11 : Vec Ideal S4 .f32)
    (x12 : Vec Ideal S4x1 .f32) (x13 : Vec Ideal S1 .f32) (j : Fin 6400) :
    k0_pay5 (F := Ideal) (k0_pay4 x0 x1 (View.ld x2 r0_1) (View.ld x2 r0_2) x3 x4 x5 x6 x7) (Scalar.ofBits .f32 0x00000000#32)
        x8 x9 x10 x11 x12 x13 (ix3 (0 : Fin 1) (0 : Fin 1) j)
      = mlpRow (rowOf x0 j) (rowOf x1 j) x2 x3 x4 x5 x6 x7 x8 x9 x10 x11 x12 x13 := by
  rw [pay5_apply, pay4_row]
  rfl

/-- A lane reduction kept as a column, at `(j, 0)`: the sum along row `j`. -/
theorem rowsum_column (v : FVec Ideal S6400x64 .f32) (h : S6400x64.Reduces [1] S6400) (hφ : FKind.Formats .f32)
    (hacc : (0x00000000#32 : BitVec FTy.f32.bits) = FKind.add.neutral .f32 hφ) (hc : S6400.ShapeCasts S6400x1) (j : Fin 6400) :
    shapeCast S6400x1 (multiReduction .add [1] S6400 v 0x00000000#32 h hφ hacc) hc (ix2 j (0 : Fin 1)) = ∑ q : Fin 64, v (ix2 j q) :=
  (Cert.Keepdims.shapeCast_a_a1_apply _ hc j (0 : Fin 1)).trans (kernel_rowsum_apply v h hφ hacc j)

/-- The second store, lane `j`: the cosine similarity of the two blocks' rows `j`. -/
theorem cos_apply (x0 x1 : Vec Ideal S6400x64 .f32) (j : Fin 6400) :
    k0_pay1 (F := Ideal) (k0_pay3 x1) (k0_pay6 (k0_pay2 x0) (k0_pay3 x1)) (k0_pay7 (k0_pay2 x0)) (ix3 (0 : Fin 1) (0 : Fin 1) j)
      = cosRow (rowOf x0 j) (rowOf x1 j) := by
  unfold k0_pay1 k0_pay6 k0_pay7 k0_pay2 k0_pay3 cosRow
  refine (column_as_lanes_apply _ _ _ j).trans ?_
  rw [shapeCast_self, shapeCast_self]
  refine congrArg₂ Ideal.div ?_ (congrArg₂ (· * ·) (congrArg (fun s => max (Ideal.sqrt s) epsW) ?_)
    (congrArg (fun s => max (Ideal.sqrt s) epsW) ?_))
  · exact rowsum_column (mulf (F := Ideal) x0 x1) _ _ _ _ j
  · exact rowsum_column (mulf (F := Ideal) x0 x0) _ _ _ _ j
  · exact rowsum_column (mulf (F := Ideal) x1 x1) _ _ _ _ j

/-- Any index of a `[1, 1, 6400]` block is `(0, 0, j)`. -/
theorem lane_idx (y : S1x1x6400.Idx) : y = ix3 (0 : Fin 1) (0 : Fin 1) (y 2 : Fin 6400) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => rfl

/-- The first store at any index of its block. -/
theorem attr_block_apply (x0 x1 : Vec Ideal S6400x64 .f32) (x2 : Vec Ideal S128x64 .f32) (x3 : Vec Ideal S64 .f32)
    (x4 : Vec Ideal S64x32 .f32) (x5 : Vec Ideal S32 .f32) (x6 : Vec Ideal S32x16 .f32) (x7 : Vec Ideal S16 .f32)
    (x8 : Vec Ideal S16x8 .f32) (x9 : Vec Ideal S8 .f32) (x10 : Vec Ideal S8x4 .f32) (x11 : Vec Ideal S4 .f32)
    (x12 : Vec Ideal S4x1 .f32) (x13 : Vec Ideal S1 .f32) (y : S1x1x6400.Idx) :
    k0_pay5 (F := Ideal) (k0_pay4 x0 x1 (View.ld x2 r0_1) (View.ld x2 r0_2) x3 x4 x5 x6 x7) (Scalar.ofBits .f32 0x00000000#32)
        x8 x9 x10 x11 x12 x13 y
      = mlpRow (rowOf x0 (y 2 : Fin 6400)) (rowOf x1 (y 2 : Fin 6400)) x2 x3 x4 x5 x6 x7 x8 x9 x10 x11 x12 x13 :=
  (congrArg (k0_pay5 (F := Ideal) (k0_pay4 x0 x1 (View.ld x2 r0_1) (View.ld x2 r0_2) x3 x4 x5 x6 x7)
      (Scalar.ofBits .f32 0x00000000#32) x8 x9 x10 x11 x12 x13) (lane_idx y)).trans
    (attr_apply x0 x1 x2 x3 x4 x5 x6 x7 x8 x9 x10 x11 x12 x13 (y 2))

/-- The second store at any index of its block. -/
theorem cos_block_apply (x0 x1 : Vec Ideal S6400x64 .f32) (y : S1x1x6400.Idx) :
    k0_pay1 (F := Ideal) (k0_pay3 x1) (k0_pay6 (k0_pay2 x0) (k0_pay3 x1)) (k0_pay7 (k0_pay2 x0)) y
      = cosRow (rowOf x0 (y 2 : Fin 6400)) (rowOf x1 (y 2 : Fin 6400)) :=
  (congrArg (k0_pay1 (F := Ideal) (k0_pay3 x1) (k0_pay6 (k0_pay2 x0) (k0_pay3 x1)) (k0_pay7 (k0_pay2 x0))) (lane_idx y)).trans
    (cos_apply x0 x1 (y 2))

end Cert.KernelIdeal.Body

end
-- ==== Proof.KernelValue.lean ====
/-
  From the body's blocks to the kernel's two results.

  The grid has 250 points. At point `t` the two windows of endpoint rows hold rows `6400·t … 6400·t + 6399` of the two gathered
  arrays, every weight window holds its whole array, and the body's two stores are written back as slab `t` of two
  `[250, 1, 6400]` arrays. So entry `(g, 0, j)` of those arrays is the attribute, and the cosine similarity, of edge
  `6400·g + j`; the 250 slabs cover the arrays. After the region the program reshapes them to `[1600000, 1]` and
  `[1600000]`: row-major position `6400·g + j` again, so entry `e` of each result is edge `e`'s value.
-/
import proofs.«152728_j15693810500067_2_alg».proof.Proof.Gen.KernelIdeal.Frame
import proofs.«152728_j15693810500067_2_alg».proof.Proof.KernelBody
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.EdgeMlp

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The two blocks of endpoint rows move with the grid point along the rows. -/
theorem idx_0 : ∀ t : Fin cfg0.N, win0_0.index t = ![t.val, 0] := (by decide +kernel : ∀ t : Fin grid0.N, win0_0.index t = ![t.val, 0])
theorem idx_1 : ∀ t : Fin cfg0.N, win0_1.index t = ![t.val, 0] := (by decide +kernel : ∀ t : Fin grid0.N, win0_1.index t = ![t.val, 0])
/-- Each weight array is one block, the same at every point. -/
theorem idx_2 : ∀ t : Fin cfg0.N, win0_2.index t = ![0, 0] := (by decide +kernel : ∀ t : Fin grid0.N, win0_2.index t = ![0, 0])
theorem idx_3 : ∀ t : Fin cfg0.N, win0_3.index t = ![0] := (by decide +kernel : ∀ t : Fin grid0.N, win0_3.index t = ![0])
theorem idx_4 : ∀ t : Fin cfg0.N, win0_4.index t = ![0, 0] := (by decide +kernel : ∀ t : Fin grid0.N, win0_4.index t = ![0, 0])
theorem idx_5 : ∀ t : Fin cfg0.N, win0_5.index t = ![0] := (by decide +kernel : ∀ t : Fin grid0.N, win0_5.index t = ![0])
theorem idx_6 : ∀ t : Fin cfg0.N, win0_6.index t = ![0, 0] := (by decide +kernel : ∀ t : Fin grid0.N, win0_6.index t = ![0, 0])
theorem idx_7 : ∀ t : Fin cfg0.N, win0_7.index t = ![0] := (by decide +kernel : ∀ t : Fin grid0.N, win0_7.index t = ![0])
theorem idx_8 : ∀ t : Fin cfg0.N, win0_8.index t = ![0, 0] := (by decide +kernel : ∀ t : Fin grid0.N, win0_8.index t = ![0, 0])
theorem idx_9 : ∀ t : Fin cfg0.N, win0_9.index t = ![0] := (by decide +kernel : ∀ t : Fin grid0.N, win0_9.index t = ![0])
theorem idx_10 : ∀ t : Fin cfg0.N, win0_10.index t = ![0, 0] := (by decide +kernel : ∀ t : Fin grid0.N, win0_10.index t = ![0, 0])
theorem idx_11 : ∀ t : Fin cfg0.N, win0_11.index t = ![0] := (by decide +kernel : ∀ t : Fin grid0.N, win0_11.index t = ![0])
theorem idx_12 : ∀ t : Fin cfg0.N, win0_12.index t = ![0, 0] := (by decide +kernel : ∀ t : Fin grid0.N, win0_12.index t = ![0, 0])
theorem idx_13 : ∀ t : Fin cfg0.N, win0_13.index t = ![0] := (by decide +kernel : ∀ t : Fin grid0.N, win0_13.index t = ![0])
/-- Each result's block at point `t` is slab `t` of its `[250, 1, 6400]` array. -/
theorem idx_14 : ∀ t : Fin cfg0.N, win0_14.index t = ![t.val, 0, 0] := (by decide +kernel : ∀ t : Fin grid0.N, win0_14.index t = ![t.val, 0, 0])
theorem idx_15 : ∀ t : Fin cfg0.N, win0_15.index t = ![t.val, 0, 0] := (by decide +kernel : ∀ t : Fin grid0.N, win0_15.index t = ![t.val, 0, 0])

/-- The edge an entry `(g, 0, j)` of a `[250, 1, 6400]` array belongs to: `6400·g + j`. -/
def edgeOf (i : S250x1x6400.Idx) : Fin 1600000 :=
  ⟨(i 0).val * 6400 + (i 2).val, by
    have h0 : (i 0).val < 250 := (i 0).isLt
    have h2 : (i 2).val < 6400 := (i 2).isLt
    omega⟩

/-- The two `[250, 1, 6400]` arrays the region leaves, as functions of the gathered endpoint rows and the weights. -/
def attrArr (XI XJ : Vec Ideal S1600000x64 .f32) (W1 : Vec Ideal S128x64 .f32) (b1 : Vec Ideal S64 .f32)
    (W2 : Vec Ideal S64x32 .f32) (b2 : Vec Ideal S32 .f32) (W3 : Vec Ideal S32x16 .f32) (b3 : Vec Ideal S16 .f32)
    (W4 : Vec Ideal S16x8 .f32) (b4 : Vec Ideal S8 .f32) (W5 : Vec Ideal S8x4 .f32) (b5 : Vec Ideal S4 .f32)
    (W6 : Vec Ideal S4x1 .f32) (b6 : Vec Ideal S1 .f32) : Vec Ideal S250x1x6400 .f32 :=
  fun i => mlpRow (rowOf XI (edgeOf i)) (rowOf XJ (edgeOf i)) W1 b1 W2 b2 W3 b3 W4 b4 W5 b5 W6 b6

def cosArr (XI XJ : Vec Ideal S1600000x64 .f32) : Vec Ideal S250x1x6400 .f32 :=
  fun i => cosRow (rowOf XI (edgeOf i)) (rowOf XJ (edgeOf i))

/-! ## The windows' blocks -/

/-- Row `j` of the first endpoint block at point `t` is row `6400·t + j` of the first gathered array. -/
theorem iblk_0_row (c : Dev nD) (t : Fin cfg0.N) (j : Fin 6400) (e : Fin 1600000) (he : e.val = t.val * 6400 + j.val) :
    rowOf (iblk m c 0 t : Vec Ideal S6400x64 .f32) j = rowOf (V m c main_v8) e := by
  funext k
  show (iblk m c 0 t : Vec Ideal S6400x64 .f32) (ix2 j k) = V m c main_v8 (ix2 e k)
  unfold iblk
  rw [View.read_apply]
  show V m c main_v8 _ = V m c main_v8 (ix2 e k)
  refine congrArg (V m c main_v8) (funext fun a => Fin.ext ?_)
  match a with
  | ⟨0, _⟩ =>
    have e0 : win0_0.index t (0 : Fin 2) = t.val := congrFun (idx_0 t) 0
    show win0_0.index t (0 : Fin 2) * 6400 + 1 * j.val = e.val; rw [e0, he]; omega
  | ⟨1, _⟩ =>
    have e1 : win0_0.index t (1 : Fin 2) = 0 := congrFun (idx_0 t) 1
    show win0_0.index t (1 : Fin 2) * 64 + 1 * k.val = k.val; rw [e1]; omega

/-- The same of the second. -/
theorem iblk_1_row (c : Dev nD) (t : Fin cfg0.N) (j : Fin 6400) (e : Fin 1600000) (he : e.val = t.val * 6400 + j.val) :
    rowOf (iblk m c 1 t : Vec Ideal S6400x64 .f32) j = rowOf (V m c main_v17) e := by
  funext k
  show (iblk m c 1 t : Vec Ideal S6400x64 .f32) (ix2 j k) = V m c main_v17 (ix2 e k)
  unfold iblk
  rw [View.read_apply]
  show V m c main_v17 _ = V m c main_v17 (ix2 e k)
  refine congrArg (V m c main_v17) (funext fun a => Fin.ext ?_)
  match a with
  | ⟨0, _⟩ =>
    have e0 : win0_1.index t (0 : Fin 2) = t.val := congrFun (idx_1 t) 0
    show win0_1.index t (0 : Fin 2) * 6400 + 1 * j.val = e.val; rw [e0, he]; omega
  | ⟨1, _⟩ =>
    have e1 : win0_1.index t (1 : Fin 2) = 0 := congrFun (idx_1 t) 1
    show win0_1.index t (1 : Fin 2) * 64 + 1 * k.val = k.val; rw [e1]; omega

/-! Each weight window's block is its whole array. -/

theorem iblk_2 (c : Dev nD) (t : Fin cfg0.N) : (iblk m c 2 t : Vec Ideal S128x64 .f32) = V m c main_arg2 := by
  funext y
  unfold iblk
  rw [View.read_apply]
  show V m c main_arg2 _ = V m c main_arg2 y
  refine congrArg (V m c main_arg2) (funext fun a => Fin.ext ?_)
  match a with
  | ⟨0, _⟩ =>
    have e : win0_2.index t (0 : Fin 2) = 0 := congrFun (idx_2 t) 0
    show win0_2.index t (0 : Fin 2) * 128 + 1 * (y 0).val = (y 0).val; rw [e]; omega
  | ⟨1, _⟩ =>
    have e : win0_2.index t (1 : Fin 2) = 0 := congrFun (idx_2 t) 1
    show win0_2.index t (1 : Fin 2) * 64 + 1 * (y 1).val = (y 1).val; rw [e]; omega

theorem iblk_3 (c : Dev nD) (t : Fin cfg0.N) : (iblk m c 3 t : Vec Ideal S64 .f32) = V m c main_arg3 := by
  funext y
  unfold iblk
  rw [View.read_apply]
  show V m c main_arg3 _ = V m c main_arg3 y
  refine congrArg (V m c main_arg3) (funext fun a => Fin.ext ?_)
  match a with
  | ⟨0, _⟩ =>
    have e : win0_3.index t (0 : Fin 1) = 0 := congrFun (idx_3 t) 0
    show win0_3.index t (0 : Fin 1) * 64 + 1 * (y 0).val = (y 0).val; rw [e]; omega

theorem iblk_4 (c : Dev nD) (t : Fin cfg0.N) : (iblk m c 4 t : Vec Ideal S64x32 .f32) = V m c main_arg4 := by
  funext y
  unfold iblk
  rw [View.read_apply]
  show V m c main_arg4 _ = V m c main_arg4 y
  refine congrArg (V m c main_arg4) (funext fun a => Fin.ext ?_)
  match a with
  | ⟨0, _⟩ =>
    have e : win0_4.index t (0 : Fin 2) = 0 := congrFun (idx_4 t) 0
    show win0_4.index t (0 : Fin 2) * 64 + 1 * (y 0).val = (y 0).val; rw [e]; omega
  | ⟨1, _⟩ =>
    have e : win0_4.index t (1 : Fin 2) = 0 := congrFun (idx_4 t) 1
    show win0_4.index t (1 : Fin 2) * 32 + 1 * (y 1).val = (y 1).val; rw [e]; omega

theorem iblk_5 (c : Dev nD) (t : Fin cfg0.N) : (iblk m c 5 t : Vec Ideal S32 .f32) = V m c main_arg5 := by
  funext y
  unfold iblk
  rw [View.read_apply]
  show V m c main_arg5 _ = V m c main_arg5 y
  refine congrArg (V m c main_arg5) (funext fun a => Fin.ext ?_)
  match a with
  | ⟨0, _⟩ =>
    have e : win0_5.index t (0 : Fin 1) = 0 := congrFun (idx_5 t) 0
    show win0_5.index t (0 : Fin 1) * 32 + 1 * (y 0).val = (y 0).val; rw [e]; omega

theorem iblk_6 (c : Dev nD) (t : Fin cfg0.N) : (iblk m c 6 t : Vec Ideal S32x16 .f32) = V m c main_arg6 := by
  funext y
  unfold iblk
  rw [View.read_apply]
  show V m c main_arg6 _ = V m c main_arg6 y
  refine congrArg (V m c main_arg6) (funext fun a => Fin.ext ?_)
  match a with
  | ⟨0, _⟩ =>
    have e : win0_6.index t (0 : Fin 2) = 0 := congrFun (idx_6 t) 0
    show win0_6.index t (0 : Fin 2) * 32 + 1 * (y 0).val = (y 0).val; rw [e]; omega
  | ⟨1, _⟩ =>
    have e : win0_6.index t (1 : Fin 2) = 0 := congrFun (idx_6 t) 1
    show win0_6.index t (1 : Fin 2) * 16 + 1 * (y 1).val = (y 1).val; rw [e]; omega

theorem iblk_7 (c : Dev nD) (t : Fin cfg0.N) : (iblk m c 7 t : Vec Ideal S16 .f32) = V m c main_arg7 := by
  funext y
  unfold iblk
  rw [View.read_apply]
  show V m c main_arg7 _ = V m c main_arg7 y
  refine congrArg (V m c main_arg7) (funext fun a => Fin.ext ?_)
  match a with
  | ⟨0, _⟩ =>
    have e : win0_7.index t (0 : Fin 1) = 0 := congrFun (idx_7 t) 0
    show win0_7.index t (0 : Fin 1) * 16 + 1 * (y 0).val = (y 0).val; rw [e]; omega

theorem iblk_8 (c : Dev nD) (t : Fin cfg0.N) : (iblk m c 8 t : Vec Ideal S16x8 .f32) = V m c main_arg8 := by
  funext y
  unfold iblk
  rw [View.read_apply]
  show V m c main_arg8 _ = V m c main_arg8 y
  refine congrArg (V m c main_arg8) (funext fun a => Fin.ext ?_)
  match a with
  | ⟨0, _⟩ =>
    have e : win0_8.index t (0 : Fin 2) = 0 := congrFun (idx_8 t) 0
    show win0_8.index t (0 : Fin 2) * 16 + 1 * (y 0).val = (y 0).val; rw [e]; omega
  | ⟨1, _⟩ =>
    have e : win0_8.index t (1 : Fin 2) = 0 := congrFun (idx_8 t) 1
    show win0_8.index t (1 : Fin 2) * 8 + 1 * (y 1).val = (y 1).val; rw [e]; omega

theorem iblk_9 (c : Dev nD) (t : Fin cfg0.N) : (iblk m c 9 t : Vec Ideal S8 .f32) = V m c main_arg9 := by
  funext y
  unfold iblk
  rw [View.read_apply]
  show V m c main_arg9 _ = V m c main_arg9 y
  refine congrArg (V m c main_arg9) (funext fun a => Fin.ext ?_)
  match a with
  | ⟨0, _⟩ =>
    have e : win0_9.index t (0 : Fin 1) = 0 := congrFun (idx_9 t) 0
    show win0_9.index t (0 : Fin 1) * 8 + 1 * (y 0).val = (y 0).val; rw [e]; omega

theorem iblk_10 (c : Dev nD) (t : Fin cfg0.N) : (iblk m c 10 t : Vec Ideal S8x4 .f32) = V m c main_arg10 := by
  funext y
  unfold iblk
  rw [View.read_apply]
  show V m c main_arg10 _ = V m c main_arg10 y
  refine congrArg (V m c main_arg10) (funext fun a => Fin.ext ?_)
  match a with
  | ⟨0, _⟩ =>
    have e : win0_10.index t (0 : Fin 2) = 0 := congrFun (idx_10 t) 0
    show win0_10.index t (0 : Fin 2) * 8 + 1 * (y 0).val = (y 0).val; rw [e]; omega
  | ⟨1, _⟩ =>
    have e : win0_10.index t (1 : Fin 2) = 0 := congrFun (idx_10 t) 1
    show win0_10.index t (1 : Fin 2) * 4 + 1 * (y 1).val = (y 1).val; rw [e]; omega

theorem iblk_11 (c : Dev nD) (t : Fin cfg0.N) : (iblk m c 11 t : Vec Ideal S4 .f32) = V m c main_arg11 := by
  funext y
  unfold iblk
  rw [View.read_apply]
  show V m c main_arg11 _ = V m c main_arg11 y
  refine congrArg (V m c main_arg11) (funext fun a => Fin.ext ?_)
  match a with
  | ⟨0, _⟩ =>
    have e : win0_11.index t (0 : Fin 1) = 0 := congrFun (idx_11 t) 0
    show win0_11.index t (0 : Fin 1) * 4 + 1 * (y 0).val = (y 0).val; rw [e]; omega

theorem iblk_12 (c : Dev nD) (t : Fin cfg0.N) : (iblk m c 12 t : Vec Ideal S4x1 .f32) = V m c main_arg12 := by
  funext y
  unfold iblk
  rw [View.read_apply]
  show V m c main_arg12 _ = V m c main_arg12 y
  refine congrArg (V m c main_arg12) (funext fun a => Fin.ext ?_)
  match a with
  | ⟨0, _⟩ =>
    have e : win0_12.index t (0 : Fin 2) = 0 := congrFun (idx_12 t) 0
    show win0_12.index t (0 : Fin 2) * 4 + 1 * (y 0).val = (y 0).val; rw [e]; omega
  | ⟨1, _⟩ =>
    have e : win0_12.index t (1 : Fin 2) = 0 := congrFun (idx_12 t) 1
    show win0_12.index t (1 : Fin 2) * 1 + 1 * (y 1).val = (y 1).val; rw [e]; omega

theorem iblk_13 (c : Dev nD) (t : Fin cfg0.N) : (iblk m c 13 t : Vec Ideal S1 .f32) = V m c main_arg13 := by
  funext y
  unfold iblk
  rw [View.read_apply]
  show V m c main_arg13 _ = V m c main_arg13 y
  refine congrArg (V m c main_arg13) (funext fun a => Fin.ext ?_)
  match a with
  | ⟨0, _⟩ =>
    have e : win0_13.index t (0 : Fin 1) = 0 := congrFun (idx_13 t) 0
    show win0_13.index t (0 : Fin 1) * 1 + 1 * (y 0).val = (y 0).val; rw [e]; omega

/-! And no host operation before the region writes a weight array: each block is the argument as launched. -/
theorem iblkm_2 (c : Dev nD) (t : Fin cfg0.N) : (iblk m c 2 t : Vec Ideal S128x64 .f32) = m ((c.tc : Thread nD τ).loc main_arg2) :=
  (iblk_2 m c t).trans (V_main_arg2 m c)
theorem iblkm_3 (c : Dev nD) (t : Fin cfg0.N) : (iblk m c 3 t : Vec Ideal S64 .f32) = m ((c.tc : Thread nD τ).loc main_arg3) :=
  (iblk_3 m c t).trans (V_main_arg3 m c)
theorem iblkm_4 (c : Dev nD) (t : Fin cfg0.N) : (iblk m c 4 t : Vec Ideal S64x32 .f32) = m ((c.tc : Thread nD τ).loc main_arg4) :=
  (iblk_4 m c t).trans (V_main_arg4 m c)
theorem iblkm_5 (c : Dev nD) (t : Fin cfg0.N) : (iblk m c 5 t : Vec Ideal S32 .f32) = m ((c.tc : Thread nD τ).loc main_arg5) :=
  (iblk_5 m c t).trans (V_main_arg5 m c)
theorem iblkm_6 (c : Dev nD) (t : Fin cfg0.N) : (iblk m c 6 t : Vec Ideal S32x16 .f32) = m ((c.tc : Thread nD τ).loc main_arg6) :=
  (iblk_6 m c t).trans (V_main_arg6 m c)
theorem iblkm_7 (c : Dev nD) (t : Fin cfg0.N) : (iblk m c 7 t : Vec Ideal S16 .f32) = m ((c.tc : Thread nD τ).loc main_arg7) :=
  (iblk_7 m c t).trans (V_main_arg7 m c)
theorem iblkm_8 (c : Dev nD) (t : Fin cfg0.N) : (iblk m c 8 t : Vec Ideal S16x8 .f32) = m ((c.tc : Thread nD τ).loc main_arg8) :=
  (iblk_8 m c t).trans (V_main_arg8 m c)
theorem iblkm_9 (c : Dev nD) (t : Fin cfg0.N) : (iblk m c 9 t : Vec Ideal S8 .f32) = m ((c.tc : Thread nD τ).loc main_arg9) :=
  (iblk_9 m c t).trans (V_main_arg9 m c)
theorem iblkm_10 (c : Dev nD) (t : Fin cfg0.N) : (iblk m c 10 t : Vec Ideal S8x4 .f32) = m ((c.tc : Thread nD τ).loc main_arg10) :=
  (iblk_10 m c t).trans (V_main_arg10 m c)
theorem iblkm_11 (c : Dev nD) (t : Fin cfg0.N) : (iblk m c 11 t : Vec Ideal S4 .f32) = m ((c.tc : Thread nD τ).loc main_arg11) :=
  (iblk_11 m c t).trans (V_main_arg11 m c)
theorem iblkm_12 (c : Dev nD) (t : Fin cfg0.N) : (iblk m c 12 t : Vec Ideal S4x1 .f32) = m ((c.tc : Thread nD τ).loc main_arg12) :=
  (iblk_12 m c t).trans (V_main_arg12 m c)
theorem iblkm_13 (c : Dev nD) (t : Fin cfg0.N) : (iblk m c 13 t : Vec Ideal S1 .f32) = m ((c.tc : Thread nD τ).loc main_arg13) :=
  (iblk_13 m c t).trans (V_main_arg13 m c)

/-! ## What each point writes back -/

/-- The edge of an element of slab `t`. -/
theorem edgeOf_emb14 (t : Fin cfg0.N) (y : S1x1x6400.Idx) :
    (edgeOf (((cfg0.win 14).blk t).view.emb y)).val = t.val * 6400 + (y 2).val := by
  have e0 : win0_14.index t (0 : Fin 3) = t.val := congrFun (idx_14 t) 0
  have e2 : win0_14.index t (2 : Fin 3) = 0 := congrFun (idx_14 t) 2
  have h0 : (y 0).val < 1 := (y 0).isLt
  show (win0_14.index t (0 : Fin 3) * 1 + 1 * (y 0).val) * 6400 + (win0_14.index t (2 : Fin 3) * 6400 + 1 * (y 2).val) = _
  rw [e0, e2]; omega

theorem edgeOf_emb15 (t : Fin cfg0.N) (y : S1x1x6400.Idx) :
    (edgeOf (((cfg0.win 15).blk t).view.emb y)).val = t.val * 6400 + (y 2).val := by
  have e0 : win0_15.index t (0 : Fin 3) = t.val := congrFun (idx_15 t) 0
  have e2 : win0_15.index t (2 : Fin 3) = 0 := congrFun (idx_15 t) 2
  have h0 : (y 0).val < 1 := (y 0).isLt
  show (win0_15.index t (0 : Fin 3) * 1 + 1 * (y 0).val) * 6400 + (win0_15.index t (2 : Fin 3) * 6400 + 1 * (y 2).val) = _
  rw [e0, e2]; omega

/-- Point `t` writes back slab `t` of the attribute array. -/
theorem flushed14_eq (c : Dev nD) (t : Fin cfg0.N) :
    (dats m 0 c).flushed 14 t = ((cfg0.win 14).blk t).view.read (Elt Ideal)
      (attrArr (V m c main_v8) (V m c main_v17) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  show (cfg0.win 14).cut (grid0.coords t) ((dats m 0 c).after 14 t) = _
  rw [after0_14]
  unfold out0_14
  rw [View.canon_unit_zero hz3]
  simp only [View.ld_unit_zero (S := S6400x64) hz2, View.ld_unit_zero (S := S64) hz1, View.ld_unit_zero (S := S64x32) hz2,
    View.ld_unit_zero (S := S32) hz1, View.ld_unit_zero (S := S32x16) hz2, View.ld_unit_zero (S := S16) hz1,
    View.ld_unit_zero (S := S16x8) hz2, View.ld_unit_zero (S := S8) hz1, View.ld_unit_zero (S := S8x4) hz2,
    View.ld_unit_zero (S := S4) hz1, View.ld_unit_zero (S := S4x1) hz2, View.ld_unit_zero (S := S1) hz1]
  funext y
  show k0_pay5 (F := Ideal) (k0_pay4 (iblk m c 0 t) (iblk m c 1 t) (View.ld (iblk m c 2 t) r0_1) (View.ld (iblk m c 2 t) r0_2)
        (iblk m c 3 t) (iblk m c 4 t) (iblk m c 5 t) (iblk m c 6 t) (iblk m c 7 t)) (Scalar.ofBits .f32 0x00000000#32)
        (iblk m c 8 t) (iblk m c 9 t) (iblk m c 10 t) (iblk m c 11 t) (iblk m c 12 t) (iblk m c 13 t) y
      = attrArr (V m c main_v8) (V m c main_v17) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (((cfg0.win 14).blk t).view.emb y)
  refine (attr_block_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) y).trans ?_
  rw [iblk_0_row m c t (y 2) _ (edgeOf_emb14 t y), iblk_1_row m c t (y 2) _ (edgeOf_emb14 t y), iblkm_2 m c t, iblkm_3 m c t, iblkm_4 m c t, iblkm_5 m c t, iblkm_6 m c t, iblkm_7 m c t, iblkm_8 m c t, iblkm_9 m c t, iblkm_10 m c t, iblkm_11 m c t, iblkm_12 m c t, iblkm_13 m c t]
  rfl

/-- Point `t` writes back slab `t` of the cosine array. -/
theorem flushed15_eq (c : Dev nD) (t : Fin cfg0.N) :
    (dats m 0 c).flushed 15 t = ((cfg0.win 15).blk t).view.read (Elt Ideal) (cosArr (V m c main_v8) (V m c main_v17)) := by
  show (cfg0.win 15).cut (grid0.coords t) ((dats m 0 c).after 15 t) = _
  rw [after0_15]
  unfold out0_15
  rw [View.canon_unit_zero hz3]
  simp only [View.ld_unit_zero (S := S6400x64) hz2]
  funext y
  show k0_pay1 (F := Ideal) (k0_pay3 (iblk m c 1 t)) (k0_pay6 (k0_pay2 (iblk m c 0 t)) (k0_pay3 (iblk m c 1 t)))
        (k0_pay7 (k0_pay2 (iblk m c 0 t))) y
      = cosArr (V m c main_v8) (V m c main_v17) (((cfg0.win 15).blk t).view.emb y)
  refine (cos_block_apply (iblk m c 0 t) (iblk m c 1 t) y).trans ?_
  rw [iblk_0_row m c t (y 2) _ (edgeOf_emb15 t y), iblk_1_row m c t (y 2) _ (edgeOf_emb15 t y)]
  rfl

/-! ## The slabs cover the arrays -/

theorem mem_blk14 (t : Fin cfg0.N) (i : S250x1x6400.Idx) :
    i ∈ ((cfg0.win 14).blk t).view.set ↔ ∀ a : Fin 3, win0_14.index t a * S1x1x6400.size a ≤ (i a).val
      ∧ (i a).val < win0_14.index t a * S1x1x6400.size a + S1x1x6400.size a := by
  show i ∈ ((View.whole main_v18_0).slice (win0_14.rect t)).set ↔ _
  rw [View.set_slice_whole, Rect.mem_set_unit]
  exact Iff.rfl

theorem mem_blk15 (t : Fin cfg0.N) (i : S250x1x6400.Idx) :
    i ∈ ((cfg0.win 15).blk t).view.set ↔ ∀ a : Fin 3, win0_15.index t a * S1x1x6400.size a ≤ (i a).val
      ∧ (i a).val < win0_15.index t a * S1x1x6400.size a + S1x1x6400.size a := by
  show i ∈ ((View.whole main_v18_1).slice (win0_15.rect t)).set ↔ _
  rw [View.set_slice_whole, Rect.mem_set_unit]
  exact Iff.rfl

/-- Entry `(g, 0, j)` is in slab `g`. -/
theorem cover14 (i : S250x1x6400.Idx) :
    ∃ t : Fin cfg0.N, (cfg0.win 14).flush t = true ∧ i ∈ ((cfg0.win 14).blk t).view.set := by
  have h0 : (i 0).val < 250 := (i 0).isLt
  have h1 : (i 1).val < 1 := (i 1).isLt
  have h2 : (i 2).val < 6400 := (i 2).isLt
  have hN : cfg0.N = 250 := N_0
  let t : Fin cfg0.N := ⟨(i 0).val, by rw [hN]; exact h0⟩
  have e0 : win0_14.index t (0 : Fin 3) = (i 0).val := congrFun (idx_14 t) 0
  have e1 : win0_14.index t (1 : Fin 3) = 0 := congrFun (idx_14 t) 1
  have e2 : win0_14.index t (2 : Fin 3) = 0 := congrFun (idx_14 t) 2
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; rw [e0]; omega
  | ⟨1, _⟩ => show win0_14.index t (1 : Fin 3) * 1 ≤ (i 1).val ∧ (i 1).val < win0_14.index t (1 : Fin 3) * 1 + 1; rw [e1]; omega
  | ⟨2, _⟩ => show win0_14.index t (2 : Fin 3) * 6400 ≤ (i 2).val ∧ (i 2).val < win0_14.index t (2 : Fin 3) * 6400 + 6400; rw [e2]; omega

theorem cover15 (i : S250x1x6400.Idx) :
    ∃ t : Fin cfg0.N, (cfg0.win 15).flush t = true ∧ i ∈ ((cfg0.win 15).blk t).view.set := by
  have h0 : (i 0).val < 250 := (i 0).isLt
  have h1 : (i 1).val < 1 := (i 1).isLt
  have h2 : (i 2).val < 6400 := (i 2).isLt
  have hN : cfg0.N = 250 := N_0
  let t : Fin cfg0.N := ⟨(i 0).val, by rw [hN]; exact h0⟩
  have e0 : win0_15.index t (0 : Fin 3) = (i 0).val := congrFun (idx_15 t) 0
  have e1 : win0_15.index t (1 : Fin 3) = 0 := congrFun (idx_15 t) 1
  have e2 : win0_15.index t (2 : Fin 3) = 0 := congrFun (idx_15 t) 2
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; rw [e0]; omega
  | ⟨1, _⟩ => show win0_15.index t (1 : Fin 3) * 1 ≤ (i 1).val ∧ (i 1).val < win0_15.index t (1 : Fin 3) * 1 + 1; rw [e1]; omega
  | ⟨2, _⟩ => show win0_15.index t (2 : Fin 3) * 6400 ≤ (i 2).val ∧ (i 2).val < win0_15.index t (2 : Fin 3) * 6400 + 6400; rw [e2]; omega

/-- The two arrays after the region. -/
theorem final14 (c : Dev nD) : (dats m 0 c).arrAt 14 cfg0.N
    = attrArr (V m c main_v8) (V m c main_v17) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (dats m 0 c).arrAt_eq_of_cover 14 _ (fun t _ => flushed14_eq m c t) cover14

theorem final15 (c : Dev nD) : (dats m 0 c).arrAt 15 cfg0.N = cosArr (V m c main_v8) (V m c main_v17) :=
  (dats m 0 c).arrAt_eq_of_cover 15 _ (fun t _ => flushed15_eq m c t) cover15

end Cert.KernelIdeal.Hand

end
-- ==== Proof.KernelRun.lean ====
/-
  The kernel's run, read: after the region the two `[250, 1, 6400]` arrays are reshaped; entry `e` of `[1600000, 1]`, and of
  `[1600000]`, sits at row-major position `e`, which in `[250, 1, 6400]` is `(e / 6400, 0, e mod 6400)` — edge `e`.
-/
import proofs.«152728_j15693810500067_2_alg».proof.Proof.KernelValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.EdgeMlp

/-- The position of edge `e` in a `[250, 1, 6400]` array. -/
def slabIdx (e : Fin 1600000) : S250x1x6400.Idx :=
  ix3 (⟨e.val / 6400, by have := e.isLt; omega⟩ : Fin 250) (0 : Fin 1) (⟨e.val % 6400, by omega⟩ : Fin 6400)

theorem edgeOf_slabIdx (e : Fin 1600000) : edgeOf (slabIdx e) = e :=
  Fin.ext (by show e.val / 6400 * 6400 + e.val % 6400 = e.val; omega)

/-- The attribute array reshaped to `[1600000, 1]`. -/
theorem reshape_attr (XI XJ : Vec Ideal S1600000x64 .f32) (W1 : Vec Ideal S128x64 .f32) (b1 : Vec Ideal S64 .f32)
    (W2 : Vec Ideal S64x32 .f32) (b2 : Vec Ideal S32 .f32) (W3 : Vec Ideal S32x16 .f32) (b3 : Vec Ideal S16 .f32)
    (W4 : Vec Ideal S16x8 .f32) (b4 : Vec Ideal S8 .f32) (W5 : Vec Ideal S8x4 .f32) (b5 : Vec Ideal S4 .f32)
    (W6 : Vec Ideal S4x1 .f32) (b6 : Vec Ideal S1 .f32)
    (h : S250x1x6400.ShapeCasts S1600000x1) :
    shapeCast S1600000x1 (attrArr XI XJ W1 b1 W2 b2 W3 b3 W4 b4 W5 b5 W6 b6) h = attrOut XI XJ W1 b1 W2 b2 W3 b3 W4 b4 W5 b5 W6 b6 := by
  funext i
  obtain ⟨e, u, rfl⟩ : ∃ (e : Fin 1600000) (u : Fin 1), i = ix2 e u := ⟨i 0, i 1, eq_ix2 i⟩
  have hu : u.val < 1 := u.isLt
  refine (shapeCast_apply _ h (ix2 e u) (slabIdx e) (by
    rw [Shape.rowMajor_val_three, Shape.rowMajor_val_two]
    show (e.val / 6400 * 1 + 0) * 6400 + e.val % 6400 = e.val * 1 + u.val
    omega)).trans ?_
  unfold attrArr attrOut
  rw [edgeOf_slabIdx]

/-- The cosine array reshaped to `[1600000]`. -/
theorem reshape_cos (XI XJ : Vec Ideal S1600000x64 .f32) (h : S250x1x6400.ShapeCasts S1600000) :
    shapeCast S1600000 (cosArr XI XJ) h = cosOut XI XJ := by
  funext i
  obtain ⟨e, rfl⟩ : ∃ e : Fin 1600000, i = ix1 e := ⟨i 0, eq_ix1 i⟩
  refine (shapeCast_apply _ h (ix1 e) (slabIdx e) (by
    rw [Shape.rowMajor_val_three, Shape.rowMajor_val_one]
    show (e.val / 6400 * 1 + 0) * 6400 + e.val % 6400 = e.val
    omega)).trans ?_
  unfold cosArr cosOut
  rw [edgeOf_slabIdx]

variable (m : (ℓ : Loc nD τ sig) → Buf (Elt Ideal) ℓ) (ρ : Dev nD → PrngReg)

/-- The first result after the lines that follow the region: the reshape of the attribute array. -/
theorem tail19 (c : Dev nD) : Pipeline.afterTail₀ cfgs (dats m) 0 (V0 m) [hostOps1] c main_v19
    = shapeCast S1600000x1 ((dats m 0 c).arrAt 14 cfg0.N) shapeCasts_S250x1x6400_S1600000x1 := by
  unfold Pipeline.afterTail₀
  show StableHlo.after hostOps1 _ (Proc.devRef .tc main_v19) = _
  after_results
  exact congrArg (fun x => shapeCast S1600000x1 x shapeCasts_S250x1x6400_S1600000x1)
    (Pipeline.withArrays_arr spec0 launch0.win.arr_inj c _ _ 14)

/-- The second: the reshape of the cosine array. -/
theorem tail20 (c : Dev nD) : Pipeline.afterTail₀ cfgs (dats m) 0 (V0 m) [hostOps1] c main_v20
    = shapeCast S1600000 ((dats m 0 c).arrAt 15 cfg0.N) shapeCasts_S250x1x6400_S1600000 := by
  unfold Pipeline.afterTail₀
  show StableHlo.after hostOps1 _ (Proc.devRef .tc main_v20) = _
  after_results
  exact congrArg (fun x => shapeCast S1600000 x shapeCasts_S250x1x6400_S1600000)
    (Pipeline.withArrays_arr spec0 launch0.win.arr_inj c _ _ 15)

/-- The kernel's program runs; its two results are the per-edge attributes and cosine similarities of the rows it gathered
    (the two gathered arrays as the region found them), and its arguments end unchanged. -/
theorem run : θ_run defs (onTc (τ := τ) (main (F := Ideal))) ⟨m, fun _ => 0, ρ⟩ (fun r => ∀ c : Dev nD,
      r.2.mem ((c.tc : Thread nD τ).loc main_v19)
        = attrOut (V m c main_v8) (V m c main_v17) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v20) = cosOut (V m c main_v8) (V m c main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v19 (Pipeline.mem_restRefs_of main_v19 (by decide) (by decide))).trans ((tail19 m c).trans
        ((congrArg (fun x => shapeCast S1600000x1 x shapeCasts_S250x1x6400_S1600000x1) (final14 m c)).trans
          (reshape_attr _ _ _ _ _ _ _ _ _ _ _ _ _ _ _))),
      ((h c).2 main_v20 (Pipeline.mem_restRefs_of main_v20 (by decide) (by decide))).trans ((tail20 m c).trans
        ((congrArg (fun x => shapeCast S1600000 x shapeCasts_S250x1x6400_S1600000) (final15 m c)).trans (reshape_cos _ _ _))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c)))⟩) (run_main m ρ)

end Cert.KernelIdeal.Hand

end
-- ==== Proof.RefValue.lean ====
/-
  The reference's two results, read one edge at a time.

  The reference gathers the two endpoint rows of every edge, lays them end to end, and applies the six layers to the
  1,600,000 rows at once: each layer is a `dot_general` plus the bias broadcast down the rows, followed by `max(·, 0)`. Row `e`
  of every intermediate depends on row `e` of the one before only, so row `e` of the last is the perceptron of the two
  endpoint rows of edge `e`; the first layer is taken on the concatenated row, which is the two half-products added
  (`dense_cat`). The cosine similarity is three sums along row `e`, two square roots, two clamps, a product and a quotient.
-/
import proofs.«152728_j15693810500067_2_alg».proof.Proof.Gen.ReferenceIdeal.Read
import proofs.«152728_j15693810500067_2_alg».proof.Proof.Spec
import proofs.«152728_j15693810500067_2_alg».proof.Proof.LibRowOps

noncomputable section

open scoped BigOperators

namespace Cert.ReferenceIdeal.RefValue

open Cert.ReferenceIdeal Cert.ReferenceIdeal.Gen Cert.ReferenceIdeal.Read Cert.EdgeMlp Cert.LibRowOps
open Idealize.ShloMosaic Idealize.ShloMosaic.ValueIdx

/-- The host's affine layer and rectifier, row by row. -/
theorem host_layer_row {m k n : Nat} (dd : DotDims ⟨2, ![m, k]⟩ ⟨2, ![k, n]⟩ ⟨2, ![m, n]⟩) (hdd : dd = DotDims.plain m k n)
    (A : FVec Ideal ⟨2, ![m, k]⟩ .f32) (B : FVec Ideal ⟨2, ![k, n]⟩ .f32) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1])
    (h0 : (⟨0, ![]⟩ : Shape).BroadcastsInDim ⟨2, ![m, n]⟩ (![] : Fin 0 → Fin 2)) (r : Fin m) :
    rowOf (maximumf (addf (Host.dotGeneral dd none A B)
          (broadcastInDim ⟨2, ![m, n]⟩ ![0, 1] hd2 (broadcastInDim ⟨2, ![1, n]⟩ ![1] hd1 b)))
        (broadcastInDim ⟨2, ![m, n]⟩ (![] : Fin 0 → Fin 2) h0 (constant (F := Ideal) ⟨0, ![]⟩ .f32 0x00000000#32))) r
      = relu (dense (rowOf A r) B b) :=
  funext fun c => congrArg (max · zeroW) (host_affine_apply dd hdd none A B b hd1 hd2 r c)

/-- The host's sum along a row from the zero word. -/
theorem host_rowsum_zero {m k : Nat} (v : FVec Ideal ⟨2, ![m, k]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v (constant (F := Ideal) ⟨0, ![]⟩ .f32 0x00000000#32) h' hu (ix1 r) = ∑ q : Fin k, v (ix2 r q) := by
  rw [host_rowsum_apply v _ h' h hu r]
  show Ideal.ofBits .f32 0x00000000#32 + _ = _
  rw [Ideal.ofBits_zero_f32, zero_add]

variable (x0 : (⟨S50000x64, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (x8 : (⟨S16x8, .f32⟩ : BufTy).Contents (Elt Ideal)) (x9 : (⟨S8, .f32⟩ : BufTy).Contents (Elt Ideal)) (x10 : (⟨S8x4, .f32⟩ : BufTy).Contents (Elt Ideal)) (x11 : (⟨S4, .f32⟩ : BufTy).Contents (Elt Ideal)) (x12 : (⟨S4x1, .f32⟩ : BufTy).Contents (Elt Ideal)) (x13 : (⟨S1, .f32⟩ : BufTy).Contents (Elt Ideal))

/-- Row `e` of the concatenation is the two endpoint rows laid end to end. -/
theorem v18_row (e : Fin 1600000) :
    rowOf (val_main_v18 (F := Ideal) x0 x1) e = cat (rowOf (val_main_v8 (F := Ideal) x0 x1) e) (rowOf (val_main_v17 (F := Ideal) x0 x1) e) := by
  funext k
  unfold val_main_v18
  by_cases hk : k.val < 64
  · have hc : cat (rowOf (val_main_v8 (F := Ideal) x0 x1) e) (rowOf (val_main_v17 (F := Ideal) x0 x1) e) k
        = val_main_v8 (F := Ideal) x0 x1 (ix2 e (⟨k.val, hk⟩ : Fin 64)) := by
      unfold cat; rw [dif_pos hk]; rfl
    rw [hc]
    refine concatenate_pair_apply_left (t := S1600000x128) (s₁ := S1600000x64) (s₂ := S1600000x64) (1 : Fin 2)
      (val_main_v8 (F := Ideal) x0 x1) (val_main_v17 (F := Ideal) x0 x1) concatenates_S1600000x64_S1600000x64_S1600000x128_d1
      (ix2 e k) rfl (ix2 e (⟨k.val, hk⟩ : Fin 64)) fun b => ?_
    match b with
    | ⟨0, _⟩ => rfl
    | ⟨1, _⟩ => rfl
  · have hk2 : k.val - 64 < 64 := by have := k.isLt; omega
    have hc : cat (rowOf (val_main_v8 (F := Ideal) x0 x1) e) (rowOf (val_main_v17 (F := Ideal) x0 x1) e) k
        = val_main_v17 (F := Ideal) x0 x1 (ix2 e (⟨k.val - 64, hk2⟩ : Fin 64)) := by
      unfold cat; rw [dif_neg hk]; rfl
    rw [hc]
    refine concatenate_pair_apply_right (t := S1600000x128) (s₁ := S1600000x64) (s₂ := S1600000x64) (1 : Fin 2)
      (val_main_v8 (F := Ideal) x0 x1) (val_main_v17 (F := Ideal) x0 x1) concatenates_S1600000x64_S1600000x64_S1600000x128_d1
      (ix2 e k) rfl rfl (ix2 e (⟨k.val - 64, hk2⟩ : Fin 64)) (fun b hb => ?_) ?_
    · match b with
      | ⟨0, _⟩ => rfl
      | ⟨1, _⟩ => exact absurd rfl hb
    · show k.val - 64 + 64 = k.val
      omega

/-- The first layer, row by row. -/
theorem v23_row (e : Fin 1600000) :
    rowOf (val_main_v23 (F := Ideal) x0 x1 x2 x3) e
      = relu (dense2 (rowOf (val_main_v8 (F := Ideal) x0 x1) e) (rowOf (val_main_v17 (F := Ideal) x0 x1) e) x2 x3) := by
  unfold val_main_v23 val_main_v22 val_main_v19 val_main_v21 val_main_v20 val_main_call0_v0 val_main_call0_cst
  refine (host_layer_row dot_S1600000x128_S128x64_S1600000x64_1_0_0_1_n_n rfl (val_main_v18 (F := Ideal) x0 x1) x2 x3 _ _ _ e).trans ?_
  rw [v18_row, dense_cat]

theorem v28_row (e : Fin 1600000) :
    rowOf (val_main_v28 (F := Ideal) x0 x1 x2 x3 x4 x5) e = relu (dense (rowOf (val_main_v23 (F := Ideal) x0 x1 x2 x3) e) x4 x5) := by
  unfold val_main_v28 val_main_v27 val_main_v24 val_main_v26 val_main_v25 val_main_call1_v0 val_main_call1_cst
  exact host_layer_row dot_S1600000x64_S64x32_S1600000x32_1_0_0_1_n_n rfl (val_main_v23 (F := Ideal) x0 x1 x2 x3) x4 x5 _ _ _ e

theorem v33_row (e : Fin 1600000) :
    rowOf (val_main_v33 (F := Ideal) x0 x1 x2 x3 x4 x5 x6 x7) e = relu (dense (rowOf (val_main_v28 (F := Ideal) x0 x1 x2 x3 x4 x5) e) x6 x7) := by
  unfold val_main_v33 val_main_v32 val_main_v29 val_main_v31 val_main_v30 val_main_call2_v0 val_main_call2_cst
  exact host_layer_row dot_S1600000x32_S32x16_S1600000x16_1_0_0_1_n_n rfl (val_main_v28 (F := Ideal) x0 x1 x2 x3 x4 x5) x6 x7 _ _ _ e

theorem v38_row (e : Fin 1600000) :
    rowOf (val_main_v38 (F := Ideal) x0 x1 x2 x3 x4 x5 x6 x7 x8 x9) e = relu (dense (rowOf (val_main_v33 (F := Ideal) x0 x1 x2 x3 x4 x5 x6 x7) e) x8 x9) := by
  unfold val_main_v38 val_main_v37 val_main_v34 val_main_v36 val_main_v35 val_main_call3_v0 val_main_call3_cst
  exact host_layer_row dot_S1600000x16_S16x8_S1600000x8_1_0_0_1_n_n rfl (val_main_v33 (F := Ideal) x0 x1 x2 x3 x4 x5 x6 x7) x8 x9 _ _ _ e

theorem v43_row (e : Fin 1600000) :
    rowOf (val_main_v43 (F := Ideal) x0 x1 x2 x3 x4 x5 x6 x7 x8 x9 x10 x11) e = relu (dense (rowOf (val_main_v38 (F := Ideal) x0 x1 x2 x3 x4 x5 x6 x7 x8 x9) e) x10 x11) := by
  unfold val_main_v43 val_main_v42 val_main_v39 val_main_v41 val_main_v40 val_main_call4_v0 val_main_call4_cst
  exact host_layer_row dot_S1600000x8_S8x4_S1600000x4_1_0_0_1_n_n rfl (val_main_v38 (F := Ideal) x0 x1 x2 x3 x4 x5 x6 x7 x8 x9) x10 x11 _ _ _ e

/-- The reference's first result: entry `e` is the perceptron of edge `e`'s two endpoint rows. -/
theorem attr_eq :
    val_main_v47 (F := Ideal) x0 x1 x2 x3 x4 x5 x6 x7 x8 x9 x10 x11 x12 x13
      = attrOut (val_main_v8 (F := Ideal) x0 x1) (val_main_v17 (F := Ideal) x0 x1) x2 x3 x4 x5 x6 x7 x8 x9 x10 x11 x12 x13 := by
  funext i
  obtain ⟨e, u, rfl⟩ : ∃ (e : Fin 1600000) (u : Fin 1), i = ix2 e u := ⟨i 0, i 1, eq_ix2 i⟩
  obtain rfl : u = 0 := Subsingleton.elim _ _
  unfold val_main_v47 val_main_v44 val_main_v46 val_main_v45
  refine (host_affine_apply dot_S1600000x4_S4x1_S1600000x1_1_0_0_1_n_n rfl none (val_main_v43 (F := Ideal) x0 x1 x2 x3 x4 x5 x6 x7 x8 x9 x10 x11) x12 x13 _ _ e
    (0 : Fin 1)).trans ?_
  show dense (rowOf (val_main_v43 (F := Ideal) x0 x1 x2 x3 x4 x5 x6 x7 x8 x9 x10 x11) e) x12 x13 (0 : Fin 1) = _
  rw [v43_row, v38_row, v33_row, v28_row, v23_row]
  rfl

/-- The three sums along row `e` read the row's 64 entries. -/
theorem idx49 (e : Fin 1600000) (k : Fin 64) : idx_main_v49 (ix1 e) k = ix2 e k :=
  funext fun a => Fin.ext (by match a with | ⟨0, _⟩ => rfl | ⟨1, _⟩ => rfl)
theorem idx51 (e : Fin 1600000) (k : Fin 64) : idx_main_v51 (ix1 e) k = ix2 e k :=
  funext fun a => Fin.ext (by match a with | ⟨0, _⟩ => rfl | ⟨1, _⟩ => rfl)
theorem idx56 (e : Fin 1600000) (k : Fin 64) : idx_main_v56 (ix1 e) k = ix2 e k :=
  funext fun a => Fin.ext (by match a with | ⟨0, _⟩ => rfl | ⟨1, _⟩ => rfl)

/-- The reference's second result: entry `e` is the cosine similarity of edge `e`'s two endpoint rows. -/
theorem cos_eq :
    val_main_v61 (F := Ideal) x0 x1 = cosOut (val_main_v8 (F := Ideal) x0 x1) (val_main_v17 (F := Ideal) x0 x1) := by
  funext i
  obtain ⟨e, rfl⟩ : ∃ e : Fin 1600000, i = ix1 e := ⟨i 0, eq_ix1 i⟩
  rw [val_main_v61_apply, val_main_v49_apply, val_main_v60_apply, val_main_v54_apply, val_main_v59_apply, val_main_v52_apply,
    val_main_v57_apply, val_main_v51_apply, val_main_v56_apply, val_main_v53_apply, val_main_v58_apply]
  simp only [val_main_v48_apply, val_main_v50_apply, val_main_v55_apply, val_main_cst_apply, val_main_cst_3_apply,
    val_main_cst_4_apply, val_main_cst_5_apply, val_main_cst_6_apply, idx49, idx51, idx56, Ideal.hostDivf_def, Ideal.mulf_def,
    Ideal.maximumf_def, Ideal.hostUnary_sqrt_def, Ideal.ofBits_def, Ideal.ofBits_zero_f32, zero_add]
  rfl

end Cert.ReferenceIdeal.RefValue

end
-- ==== Proof.lean ====
/-
  The certificate of the edge perceptron and cosine similarity kernel against its jnp reference, at the ideal values.

  Both programs gather, by the same host operations, the two endpoint rows of each of the 1,600,000 edges. The kernel then
  walks the edges 6400 at a time: its body applies the six-layer perceptron to each pair of rows (the first layer as two
  half-products added) and takes their cosine similarity, and the 250 slabs it writes are reshaped to the two results. The
  reference applies the same layers to all rows at once, the first on the concatenated rows. Entry `e` of each result
  depends on the two gathered rows `e` only, and is the same function of them on both sides (`Cert.EdgeMlp.mlpRow`,
  `cosRow`): the one law used is that a sum over 128 indices is the sum over the first 64 plus the sum over the last 64,
  which holds of all extended reals, so the finiteness of the inputs is not used. The two programs' gathers are one term
  of the arguments and are never opened. No operation of the kernel was rewritten on the way to its idealized form, so `preserves` is `True`.
  The frames of the two kernel programs and the reference's run are the generated ones.
-/
import proofs.«152728_j15693810500067_2_alg».proof.Defs
import proofs.«152728_j15693810500067_2_alg».proof.Proof.Gen.Kernel
import proofs.«152728_j15693810500067_2_alg».proof.Proof.Gen.Kernel.Skeleton
import proofs.«152728_j15693810500067_2_alg».proof.Proof.Gen.Kernel.Launch
import proofs.«152728_j15693810500067_2_alg».proof.Proof.Gen.Kernel.Points
import proofs.«152728_j15693810500067_2_alg».proof.Proof.Gen.Kernel.Frame
import proofs.«152728_j15693810500067_2_alg».proof.Proof.Gen.KernelIdeal
import proofs.«152728_j15693810500067_2_alg».proof.Proof.Gen.KernelIdeal.Skeleton
import proofs.«152728_j15693810500067_2_alg».proof.Proof.Gen.KernelIdeal.Launch
import proofs.«152728_j15693810500067_2_alg».proof.Proof.Gen.KernelIdeal.Points
import proofs.«152728_j15693810500067_2_alg».proof.Proof.Gen.KernelIdeal.Frame
import proofs.«152728_j15693810500067_2_alg».proof.Proof.Gen.ReferenceIdeal
import proofs.«152728_j15693810500067_2_alg».proof.Proof.Gen.Pre_finite_inputs
import proofs.«152728_j15693810500067_2_alg».proof.Proof.Gen.ReferenceIdeal.Run
import proofs.«152728_j15693810500067_2_alg».proof.Proof.Gen.ReferenceIdeal.Read
import proofs.«152728_j15693810500067_2_alg».proof.Proof.KernelRun
import proofs.«152728_j15693810500067_2_alg».proof.Proof.RefValue
import Idealize.ShloMosaic.Adequacy
import Idealize.ShloMosaic.Init
import Idealize.ShloMosaic.Lib.StableHlo.Run
import Idealize.ShloMosaic.Lib.Tactic

set_option maxRecDepth 16384

noncomputable section

namespace Cert.Proof

open Idealize.ShloMosaic Idealize.ShloMosaic.TcCoe Idealize.SL.Sem

/-- The first gathered array, as the kernel's region finds it, is the reference's: the same host operations of the same
    two arguments. -/
theorem gathered_i (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v8
      = Cert.ReferenceIdeal.Read.val_main_v8 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v8) = _
  after_results
  rfl

set_option maxHeartbeats 2000000 in
/-- The second likewise. -/
theorem gathered_j (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v17
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v17) = _
  after_results_simp <;> rfl

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten: there is nothing to preserve. -/
theorem preserves : Cert.preserves_Kernel_KernelIdeal := trivial

/-- From arguments that agree, both programs end with the per-edge attributes and cosine similarities of the same
    gathered rows. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13⟩ := hagree c
    refine ((h c).1.trans (Cert.ReferenceIdeal.Read.val_main_v47_eq _ _ _ _ _ _ _ _ _ _ _ _ _ _)).trans ?_
    rw [Cert.ReferenceIdeal.RefValue.attr_eq, a0, a1, a2, a3, a4, a5, a6, a7, a8, a9, a10, a11, a12, a13,
      ← gathered_i m c, ← gathered_j m c]
  · obtain ⟨a0, a1, -⟩ := hagree c
    refine ((h c).2.1.trans (Cert.ReferenceIdeal.Read.val_main_v61_eq m' c)).trans ?_
    rw [Cert.ReferenceIdeal.RefValue.cos_eq, a0, a1, ← gathered_i m c, ← gathered_j m c]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
